-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x32x128 : Shape := ⟨3, ![11008, 32, 128]⟩
abbrev S11008x32 : Shape := ⟨2, ![11008, 32]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_cst_6 : FVec F S_ .f32 := constant S_ .f32 0x00000000#32
  let main_v19 : FVec F S_ .f32 := (fun x v => Host.reduceAdd x v reducesTo_S4096_S_d0 h_S_) main_arg4 main_cst_6
  let main_cst_7 : FVec F S_ .f32 := constant S_ .f32 0x45800000#32
  let main_v20 : FVec F S_ .f32 := Host.divf main_v19 main_cst_7
  let main_cst_8 : FVec F S_ .f32 := constant S_ .f32 0x00000000#32
  let main_v21 : IVec S_ 1 := cmpf .une main_v20 main_cst_8
  let main_v22 : IVec S_ 1 := andi main_v18 main_v21
  main_v22

def fn {F : FTy → Type} [FloatOps F] (main_arg0 : FVec F S4x2048x4096 .f32) (main_arg1 : IVec S11008x32x128 32) (main_arg2 : FVec F S11008x32 .f32) (main_arg3 : FVec F S11008x32 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008x32 .f32 := Host.absf main_arg3
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S4x2048x4096 : Shape := ⟨3, ![4, 2048, 4096]⟩
abbrev S11008x32x128 : Shape := ⟨3, ![11008, 32, 128]⟩
abbrev S11008x32 : Shape := ⟨2, ![11008, 32]⟩
abbrev S4096 : Shape := ⟨1, ![4096]⟩
abbrev S8192x4096 : Shape := ⟨2, ![8192, 4096]⟩
abbrev S_ : Shape := ⟨0, ![]⟩
abbrev S8192x11008 : Shape := ⟨2, ![8192, 11008]⟩
abbrev S256x4096 : Shape := ⟨2, ![256, 4096]⟩
abbrev S256x32x128 : Shape := ⟨3, ![256, 32, 128]⟩
abbrev S256x32 : Shape := ⟨2, ![256, 32]⟩
abbrev S256x256 : Shape := ⟨2, ![256, 256]⟩
abbrev S256x32x1 : Shape := ⟨3, ![256, 32, 1]⟩
abbrev S1x4096 : Shape := ⟨2, ![1, 4096]⟩
abbrev S4x2048x11008 : Shape := ⟨3, ![4, 2048, 11008]⟩

abbrev nBuf : Space → Nat
  | .hbm => 16
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S11008x32x128, .i32⟩
  | .hbm, ⟨2, _⟩ => ⟨S11008x32, .f32⟩
  | .hbm, ⟨3, _⟩ => ⟨S11008x32, .f32⟩
  | .hbm, ⟨4, _⟩ => ⟨S4096, .f32⟩
  | .hbm, ⟨5, _⟩ => ⟨S8192x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S8192x11008, .f32⟩
  | .hbm, ⟨15, _⟩ => ⟨S4x2048x11008, .f32⟩
  | .local _ .vmem, ⟨0, _⟩ => ⟨S256x4096, .f32⟩
  | .local _ .vmem, ⟨1, _⟩ => ⟨S256x4096, .f32⟩
  | .local _ .vmem, ⟨2, _⟩ => ⟨S256x32x128, .i32⟩
  | .local _ .vmem, ⟨3, _⟩ => ⟨S256x32x128, .i32⟩
  | .local _ .vmem, ⟨4, _⟩ => ⟨S256x32, .f32⟩
  | .local _ .vmem, ⟨5, _⟩ => ⟨S256x32, .f32⟩
  | .local _ .vmem, ⟨6, _⟩ => ⟨S256x32, .f32⟩
  | .local _ .vmem, ⟨7, _⟩ => ⟨S256x32, .f32⟩
  | .local _ .vmem, ⟨8, _⟩ => ⟨S4096, .f32⟩
  | .local _ .vmem, ⟨9, _⟩ => ⟨S256x256, .f32⟩
  | .local _ .vmem, ⟨10, _⟩ => ⟨S256x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  reducesTo_S4096_S_d0 : S4096.ReducesTo [0] S_
  h_S_ : 0 < S_.numel
  bcast_S_S4096 : S_.BroadcastsInDim S4096 (![] : Fin 0 → Fin S4096.rank)
  inb_S256x32x128_S256x32x128_0_0_0 : ∀ a, (![0, 0, 0] : Fin 3 → Nat) a + S256x32x128.size a ≤ S256x32x128.size a
  h_S256x32x128 : 0 < S256x32x128.numel
  inb_S256x32_S256x32_0_0 : ∀ a, (![0, 0] : Fin 2 → Nat) a + S256x32.size a ≤ S256x32.size a
  h_S256x32 : 0 < S256x32.numel
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S256x4096 : S1x4096.Broadcasts S256x4096
  inb_S256x256_S256x256_0_0 : ∀ a, (![0, 0] : Fin 2 → Nat) a + S256x256.size a ≤ S256x256.size a
  h_S256x256 : 0 < S256x256.numel
  shapeCasts_S8192x11008_S4x2048x11008 : S8192x11008.ShapeCasts S4x2048x11008
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32x128.size a ≤ S11008x32x128.size a
  hwx0_1 : ∀ i : grid0.Coords, EltTy.bits .i32 = 32 ∨ (Rect.block (s := S11008x32x128) S256x32x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .f32 = 32 ∨ (Rect.block (s := S11008x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S11008x32.size a
  hwx0_3 : ∀ i : grid0.Coords, EltTy.bits .f32 = 32 ∨ (Rect.block (s := S11008x32) S256x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S4096.size a
  hwx0_4 : ∀ i : grid0.Coords, EltTy.bits .f32 = 32 ∨ (Rect.block (s := S4096) S4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S8192x11008.size a
  hwx0_5 : ∀ i : grid0.Coords, EltTy.bits .f32 = 32 ∨ (Rect.block (s := S8192x11008) S256x256.size (cc0_transform_5 i) (hinb0_5 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x32x128 : Shape := ⟨3, ![11008, 32, 128]⟩
abbrev S11008x32 : Shape := ⟨2, ![11008, 32]⟩
abbrev S4096 : Shape := ⟨1, ![4096]⟩
abbrev S1x1x4096 : Shape := ⟨3, ![1, 1, 4096]⟩
abbrev S11008x32x1 : Shape := ⟨3, ![11008, 32, 1]⟩
abbrev S11008x4096 : Shape := ⟨2, ![11008, 4096]⟩
abbrev S4x2048x11008 : Shape := ⟨3, ![4, 2048, 11008]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x32x128, .i32⟩
  | .hbm, ⟨2, _⟩ => ⟨S11008x32, .f32⟩
  | .hbm, ⟨3, _⟩ => ⟨S11008x32, .f32⟩
  | .hbm, ⟨4, _⟩ => ⟨S4096, .f32⟩
  | .hbm, ⟨5, _⟩ => ⟨S1x1x4096, .f32⟩
  | .hbm, ⟨6, _⟩ => ⟨S4x2048x4096, .f32⟩
  | .hbm, ⟨7, _⟩ => ⟨S4x2048x4096, .f32⟩
  | .hbm, ⟨8, _⟩ => ⟨S11008x32x128, .f32⟩
  | .hbm, ⟨9, _⟩ => ⟨S11008x32x1, .f32⟩
  | .hbm, ⟨10, _⟩ => ⟨S11008x32x128, .f32⟩
  | .hbm, ⟨11, _⟩ => ⟨S11008x32x128, .f32⟩
  | .hbm, ⟨12, _⟩ => ⟨S11008x32x1, .f32⟩
  | .hbm, ⟨13, _⟩ => ⟨S11008x32x128, .f32⟩
  | .hbm, ⟨14, _⟩ => ⟨S11008x32x128, .f32⟩
  | .hbm, ⟨15, _⟩ => ⟨S11008x4096, .f32⟩
  | .hbm, ⟨16, _⟩ => ⟨S4x2048x11008, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x2048x11008, .f32⟩
  | .hbm, ⟨22, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  reducesTo_S4096_S_d0 : S4096.ReducesTo [0] S_
  h_S_ : 0 < S_.numel
  bcast_S_S4x2048x11008 : S_.BroadcastsInDim S4x2048x11008 (![] : Fin 0 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.LibReshape.lean ====
/-
  Layout operations read at an index, for shapes the value library does not yet spell out.

  * A trailing unit axis: an `[a, b]` array cast to `[a, b, 1]`, and an `[a, b, 1]` array broadcast
    along its unit axis to `[a, b, c]`. Together they read a per-(row, group) quantity at every lane of
    the group.
  * Two adjacent axes merged or split by a cast, row-major order kept: `[a, b, c]` to `[a, b * c]`
    (the last two axes merged), `[a, b, c]` to `[a * b, c]` (the first two merged) and back. The merged
    coordinate is `j * c + k`, respectively `i * b + j`; the lemmas take it as a variable with that
    equation, so that a caller may present it in whichever form it has (a quotient and remainder, or a
    product and sum).

  All of them are the library's `shapeCast_apply` / `broadcastTo_apply` with the two row-major positions
  computed.
-/
import Idealize.ShloMosaic.Lib.Pipeline.Value
import Idealize.ShloMosaic.Lib.ValueIdx

namespace Cert.LibReshape

open Idealize.ShloMosaic Idealize.ShloMosaic.ValueIdx

variable {α : Type}

/-! ## A trailing unit axis -/

/-- An `[a, b]` array cast to `[a, b, 1]` reads, at `(i, j, u)`, the operand at `(i, j)`, whatever the unit
    coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` array broadcast to `[a, b, c]` reads, at `(i, j, k)`, the operand at `(i, j, 0)`: the value
    does not depend on the position `k` along the broadcast axis. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## Two adjacent axes merged or split -/

/-- An `[a, b, c]` array cast to `[a, n]` with `n = b * c` reads, at `(i, q)` with `q = j * c + k`, the operand at
    `(i, j, k)`. -/
theorem shapeCast_abc_a_bc_apply {a b c n : ℕ} (x : (⟨3, ![a, b, c]⟩ : Shape).Idx → α)
    (h : (⟨3, ![a, b, c]⟩ : Shape).ShapeCasts ⟨2, ![a, n]⟩) (hn : n = b * c)
    (i : Fin a) (j : Fin b) (k : Fin c) (q : Fin n) (hq : q.val = j.val * c + k.val) :
    shapeCast ⟨2, ![a, n]⟩ x h (ix2 i q) = x (ix3 i j k) :=
  shapeCast_apply x h _ _ (by
    rw [Shape.rowMajor_val_three, Shape.rowMajor_val_two]
    show (i.val * b + j.val) * c + k.val = i.val * n + q.val
    rw [hq, hn, Nat.add_mul, Nat.mul_assoc, Nat.add_assoc])

/-- An `[a, b, c]` array cast to `[n, c]` (with `n = a * b`) reads, at `(r, k)` with `r = i * b + j`, the operand at
    `(i, j, k)`. -/
theorem shapeCast_abc_ab_c_apply {a b c n : ℕ} (x : (⟨3, ![a, b, c]⟩ : Shape).Idx → α)
    (h : (⟨3, ![a, b, c]⟩ : Shape).ShapeCasts ⟨2, ![n, c]⟩)
    (i : Fin a) (j : Fin b) (k : Fin c) (r : Fin n) (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array (with `n = a * b`) cast to `[a, b, c]` reads, at `(i, j, k)`, the operand at `(r, k)` with
    `r = i * b + j`. -/
theorem shapeCast_ab_c_abc_apply {a b c n : ℕ} (x : (⟨2, ![n, c]⟩ : Shape).Idx → α)
    (h : (⟨2, ![n, c]⟩ : Shape).ShapeCasts ⟨3, ![a, b, c]⟩)
    (i : Fin a) (j : Fin b) (k : Fin c) (r : Fin n) (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibReshape
-- ==== Proof.Spec.lean ====
/-
  The dequantized weights, as both programs read them.

  The weights arrive as integer codes `qw (o, g, l)` for output feature `o`, group `g` of 32 and lane `l` of 128,
  with one zero point `zr (o, g)` and one scale `sc (o, g)` per (feature, group). Position `k` of the 4096-long
  contracted axis is lane `k % 128` of group `k / 128`, and the weight there is
      W o k = (qw (o, k / 128, k % 128) - zr (o, k / 128)) * sc (o, k / 128).
  When the zero point and the scale are real numbers so is the weight (the code is an integer).
-/
import Idealize.ShloMosaic.PureOps.Ideal
import Idealize.ShloMosaic.Lib.ValueIdx

noncomputable section

namespace Cert.Spec

open Idealize.ShloMosaic Idealize.ShloMosaic.ValueIdx

/-- The group of position `k` of the contracted axis. -/
abbrev grp (k : Fin 4096) : Fin 32 := ⟨k.val / 128, by have := k.isLt; omega⟩
/-- Its lane inside the group. -/
abbrev lane (k : Fin 4096) : Fin 128 := ⟨k.val % 128, Nat.mod_lt _ (by decide)⟩

/-- The dequantized weight of feature `o` (of `n`) at position `k`: the code less the group's zero point, times the
    group's scale. -/
def deq {n : ℕ} (qw : Vec Ideal ⟨3, ![n, 32, 128]⟩ .i32) (zr sc : Vec Ideal ⟨2, ![n, 32]⟩ .f32) (o : Fin n) (k : Fin 4096) : EReal :=
  (FloatOps.sitofp (F := Ideal) .f32 (qw (ix3 o (grp k) (lane k))) - zr (ix2 o (grp k))) * sc (ix2 o (grp k))

/-- A weight built from a real zero point and a real scale is a real number. -/
theorem deq_real {n : ℕ} (qw : Vec Ideal ⟨3, ![n, 32, 128]⟩ .i32) (zr sc : Vec Ideal ⟨2, ![n, 32]⟩ .f32)
    (hz : ∀ j, ∃ r : ℝ, zr j = r) (hs : ∀ j, ∃ r : ℝ, sc j = r) (o : Fin n) (k : Fin 4096) :
    ∃ r : ℝ, deq qw zr sc o k = r := by
  obtain ⟨z, hz'⟩ := hz (ix2 o (grp k))
  obtain ⟨s, hs'⟩ := hs (ix2 o (grp k))
  refine ⟨(((qw (ix3 o (grp k) (lane k))).toInt : ℝ) - z) * s, ?_⟩
  unfold deq
  rw [hz', hs', EReal.coe_mul, EReal.coe_sub]
  rfl

end Cert.Spec

end
-- ==== Proof.KernelBlock.lean ====
/-
  What one grid point of the kernel computes, read at an index.

  The body loads a block of 256 activation rows `x` (256 × 4096), the scaled activation vector `act` (4096),
  and for 256 output features their integer codes `qw` (256 × 32 × 128) with a zero point `zr` and a scale `sc`
  per (feature, group) (256 × 32). Position `k` of the contracted axis lies in group `k / 128` at lane `k % 128`,
  so the dequantized weight of feature `q` at position `k` is
      W q k = (qw (q, k / 128, k % 128) - zr (q, k / 128)) * sc (q, k / 128),
  and the block of results is the matrix product of the scaled rows with these weights, contracted over `k`:
      out (p, q) = ∑ k, (x (p, k) * act k) * W q k.
  Over the extended reals the two changes of float format on the way into the product are the identity and the
  product into a zero accumulator is this plain sum.
-/
import proofs.«103320_j1984274890910_1_alg».proof.Proof.Gen.KernelIdeal.Skeleton
import proofs.«103320_j1984274890910_1_alg».proof.Proof.LibReshape
import proofs.«103320_j1984274890910_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx Cert.LibReshape Cert.Spec

theorem lhs0 (j : S256x256.Idx) (q : dot_S256x4096_S256x4096_S256x256_1_1_0_0_n_n.contr.Idx) :
    (dot_S256x4096_S256x4096_S256x256_1_1_0_0_n_n.lhsIdx j q 0).val = (j 0).val := by
  unfold DotDims.lhsIdx
  rw [dif_neg (show ¬(0 : Fin S256x4096.rank) ∈ dot_S256x4096_S256x4096_S256x256_1_1_0_0_n_n.lhsBatch by decide),
    dif_pos (show (0 : Fin S256x4096.rank) ∈ dot_S256x4096_S256x4096_S256x256_1_1_0_0_n_n.lhsNonContracting by decide)]
  rfl
theorem lhs1 (j : S256x256.Idx) (q : dot_S256x4096_S256x4096_S256x256_1_1_0_0_n_n.contr.Idx) :
    (dot_S256x4096_S256x4096_S256x256_1_1_0_0_n_n.lhsIdx j q 1).val = (q ⟨0, by decide⟩).val :=
  dot_S256x4096_S256x4096_S256x256_1_1_0_0_n_n.lhsIdx_val_of_single rfl j q
theorem rhs0 (j : S256x256.Idx) (q : dot_S256x4096_S256x4096_S256x256_1_1_0_0_n_n.contr.Idx) :
    (dot_S256x4096_S256x4096_S256x256_1_1_0_0_n_n.rhsIdx j q 0).val = (j 1).val := by
  unfold DotDims.rhsIdx
  rw [dif_neg (show ¬(0 : Fin S256x4096.rank) ∈ dot_S256x4096_S256x4096_S256x256_1_1_0_0_n_n.rhsBatch by decide),
    dif_pos (show (0 : Fin S256x4096.rank) ∈ dot_S256x4096_S256x4096_S256x256_1_1_0_0_n_n.rhsNonContracting by decide)]
  rfl
theorem rhs1 (j : S256x256.Idx) (q : dot_S256x4096_S256x4096_S256x256_1_1_0_0_n_n.contr.Idx) :
    (dot_S256x4096_S256x4096_S256x256_1_1_0_0_n_n.rhsIdx j q 1).val = (q ⟨0, by decide⟩).val :=
  dot_S256x4096_S256x4096_S256x256_1_1_0_0_n_n.rhsIdx_val_of_single rfl j q

/-- The scaled rows at `(p, k)`: the row entry times the vector's entry at `k` (the vector laid as one row and
    repeated down the 256 rows). -/
theorem scaled_apply (x : Vec Ideal S256x4096 .f32) (act : Vec Ideal S4096 .f32) (p : Fin 256) (k : Fin 4096) :
    (mulf (shapeCast S256x4096 x shapeCasts_S256x4096_S256x4096)
      (broadcastTo S256x4096 (shapeCast S1x4096 (shapeCast S4096 act shapeCasts_S4096_S4096) shapeCasts_S4096_S1x4096)
        broadcasts_S1x4096_S256x4096) : FVec Ideal S256x4096 .f32) (ix2 p k) = x (ix2 p k) * act (ix1 k) := by
  rw [mulf_apply, shapeCast_self, broadcastTo_1b_ab_apply, shapeCast_a_1a_apply, shapeCast_self]

/-- The dequantized block, its last two axes merged, at `(q, k)`. -/
theorem weights_apply (qw : Vec Ideal S256x32x128 .i32) (zr sc : Vec Ideal S256x32 .f32) (q : Fin 256) (k : Fin 4096) :
    (shapeCast S256x4096
      (mulf (subf (sitofp .f32 qw) (broadcastTo S256x32x128 (shapeCast S256x32x1 zr shapeCasts_S256x32_S256x32x1) broadcasts_S256x32x1_S256x32x128))
        (broadcastTo S256x32x128 (shapeCast S256x32x1 sc shapeCasts_S256x32_S256x32x1) broadcasts_S256x32x1_S256x32x128) : FVec Ideal S256x32x128 .f32)
      shapeCasts_S256x32x128_S256x4096) (ix2 q k) = deq qw zr sc q k := by
  rw [shapeCast_abc_a_bc_apply _ _ rfl q (grp k) (lane k) k (by show k.val = k.val / 128 * 128 + k.val % 128; omega),
    mulf_apply, subf_apply, broadcastTo_ab1_abc_apply, shapeCast_ab_ab1_apply, broadcastTo_ab1_abc_apply, shapeCast_ab_ab1_apply]
  rfl

/-- THE BLOCK OF RESULTS at `(p, q)`: the sum over the contracted axis of the scaled row entry times the dequantized
    weight. -/
theorem pay_apply (qw : Vec Ideal S256x32x128 .i32) (zr sc : Vec Ideal S256x32 .f32) (x : Vec Ideal S256x4096 .f32)
    (act : Vec Ideal S4096 .f32) (p q : Fin 256) :
    k0_pay1 (F := Ideal) qw zr sc x act (ix2 p q) = ∑ k : Fin 4096, (x (ix2 p k) * act (ix1 k)) * deq qw zr sc q k := by
  unfold k0_pay1
  refine (Ideal.matmul_constant_zero_apply dot_S256x4096_S256x4096_S256x256_1_1_0_0_n_n none _ _ (ix2 p q)).trans ?_
  rw [← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 p q)
      ((contrEquiv1 dot_S256x4096_S256x4096_S256x256_1_1_0_0_n_n 4096 rfl rfl).symm k) = ix2 p k := funext fun a => Fin.ext (by
    match a with
    | ⟨0, _⟩ => exact lhs0 _ _
    | ⟨1, _⟩ => exact (lhs1 _ _).trans hk)
  have er : dot_S256x4096_S256x4096_S256x256_1_1_0_0_n_n.rhsIdx (ix2 p q)
      ((contrEquiv1 dot_S256x4096_S256x4096_S256x256_1_1_0_0_n_n 4096 rfl rfl).symm k) = ix2 q k := funext fun a => Fin.ext (by
    match a with
    | ⟨0, _⟩ => exact rhs0 _ _
    | ⟨1, _⟩ => exact (rhs1 _ _).trans hk)
  rw [el, er, truncf_apply, truncf_apply]
  exact congrArg₂ (· * ·) (scaled_apply x act p k) (weights_apply qw zr sc q k)

end Cert.KernelIdeal.Block

end
-- ==== Proof.KernelArray.lean ====
/-
  The kernel's output array after the region, as one function of the arrays the region reads.

  The grid has 32 × 43 points; point `t` works on the 256 activation rows of row block `t / 43` and the 256
  output features of feature block `t % 43`, reads the whole contracted axis and the whole scaled vector, and
  writes back the 256 × 256 block at (row block, feature block). The entry it writes at `(p, q)` of that block is
  the entry `(256 * (t / 43) + p, 256 * (t % 43) + q)` of ONE function of the whole arrays,
      entry (r, o) = ∑ k, (X (r, k) * ACT k) * W o k,
  because every input block is its array read where the output's block says. The 1376 blocks tile the
  8192 × 11008 array, so after the last write-back the array IS that function.
-/
import proofs.«103320_j1984274890910_1_alg».proof.Proof.Gen.KernelIdeal.Frame
import proofs.«103320_j1984274890910_1_alg».proof.Proof.KernelBlock

set_option maxRecDepth 16384

noncomputable section

namespace Cert.KernelIdeal.Arr

open Cert.KernelIdeal Cert.KernelIdeal.Gen Cert.KernelIdeal.Block Cert.Spec Idealize.ShloMosaic Idealize.ShloMosaic.TcCoe
open Idealize.ShloMosaic.ValueIdx Idealize.SL.Sem
open Idealize.ShloMosaic.Pipeline (Dat)

/-- One entry of the result over the whole arrays: activation row `r` (of the 8192 flattened rows), scaled by the
    vector `ACT`, against the dequantized weights of feature `o`. -/
def entry (X : Vec Ideal S8192x4096 .f32) (QW : Vec Ideal S11008x32x128 .i32) (ZR SC : Vec Ideal S11008x32 .f32)
    (ACT : Vec Ideal S4096 .f32) (r : Fin 8192) (o : Fin 11008) : EReal :=
  ∑ k : Fin 4096, (X (ix2 r k) * ACT (ix1 k)) * deq QW ZR SC o k

/-- The whole 8192 × 11008 result. -/
def whole (X : Vec Ideal S8192x4096 .f32) (QW : Vec Ideal S11008x32x128 .i32) (ZR SC : Vec Ideal S11008x32 .f32)
    (ACT : Vec Ideal S4096 .f32) : S8192x11008.Idx → EReal :=
  fun i => entry X QW ZR SC ACT ⟨(i 0).val, idx2_lt0 i⟩ ⟨(i 1).val, idx2_lt1 i⟩

/-- A block's entry is the whole function's entry, once each loaded block agrees with its array at the places the
    entry reads: row `p` of the activation block is row `r` of the array, feature `q` of the three weight blocks is
    feature `o` of the arrays, and the vector is loaded whole. -/
theorem block_entry (X : Vec Ideal S8192x4096 .f32) (QW : Vec Ideal S11008x32x128 .i32) (ZR SC : Vec Ideal S11008x32 .f32)
    (ACT : Vec Ideal S4096 .f32)
    (x : Vec Ideal S256x4096 .f32) (qw : Vec Ideal S256x32x128 .i32) (zr sc : Vec Ideal S256x32 .f32) (act : Vec Ideal S4096 .f32)
    (p q : Fin 256) (r : Fin 8192) (o : Fin 11008)
    (hx : ∀ k : Fin 4096, x (ix2 p k) = X (ix2 r k))
    (hqw : ∀ (g : Fin 32) (l : Fin 128), qw (ix3 q g l) = QW (ix3 o g l))
    (hzr : ∀ g : Fin 32, zr (ix2 q g) = ZR (ix2 o g))
    (hsc : ∀ g : Fin 32, sc (ix2 q g) = SC (ix2 o g))
    (hact : ∀ k : Fin 4096, act (ix1 k) = ACT (ix1 k)) :
    k0_pay1 (F := Ideal) qw zr sc x act (ix2 p q) = entry X QW ZR SC ACT r o := by
  rw [pay_apply]
  unfold entry
  refine Finset.sum_congr rfl fun k _ => ?_
  unfold deq
  rw [hx, hact, hqw, hzr, hsc]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Every window's block index as a function of the point, decided over the grid: the output's block is
    (`t / 43`, `t % 43`); the activation rows follow the first, the three weight windows the second; the contracted
    axis and the vector are never blocked. -/
theorem idx_facts : ∀ t : Fin cfg0.N,
    win0_5.index t (0 : Fin 2) = t.val / 43 ∧ win0_5.index t (1 : Fin 2) = t.val % 43
    ∧ win0_0.index t (0 : Fin 2) = t.val / 43 ∧ win0_0.index t (1 : Fin 2) = 0
    ∧ win0_1.index t (0 : Fin 3) = t.val % 43 ∧ win0_1.index t (1 : Fin 3) = 0 ∧ win0_1.index t (2 : Fin 3) = 0
    ∧ win0_2.index t (0 : Fin 2) = t.val % 43 ∧ win0_2.index t (1 : Fin 2) = 0
    ∧ win0_3.index t (0 : Fin 2) = t.val % 43 ∧ win0_3.index t (1 : Fin 2) = 0
    ∧ win0_4.index t (0 : Fin 1) = 0 :=
  (by decide +kernel : ∀ t : Fin grid0.N, _)

variable (m : (ℓ : Loc nD τ sig) → Buf (Elt Ideal) ℓ)

/-- WHAT POINT `t` WRITES BACK is block `t` of `whole` of the arrays as the region finds them. -/
theorem flushed_eq (c : Dev nD) (t : Fin cfg0.N) :
    (dats m 0 c).flushed 5 t = ((cfg0.win 5).blk t).view.read (Elt Ideal)
      (whole (V m c main_v0) (V m c main_arg1) (V m c main_arg3) (V m c main_arg2) (V m c main_v5)) := by
  show (cfg0.win 5).cut (grid0.coords t) ((dats m 0 c).after 5 t) = _
  rw [after0_5]
  unfold out0_5
  rw [View.canon_unit_zero hz2]
  simp only [View.ld_unit_zero (S := S256x32x128) hz3, View.ld_unit_zero (S := S256x32) hz2,
    View.ld_unit_zero (S := S256x4096) hz2, View.ld_unit_zero (S := S4096) hz1]
  obtain ⟨e50, e51, e00, e01, e10, e11, e12, e20, e21, e30, e31, e40⟩ := idx_facts t
  refine funext fun (j : S256x256.Idx) => ?_
  obtain ⟨p, q, rfl⟩ : ∃ (p q : Fin 256), j = ix2 p q := ⟨j 0, j 1, eq_ix2 j⟩
  show k0_pay1 (F := Ideal) (iblk m c 1 t) (iblk m c 3 t) (iblk m c 2 t) (iblk m c 0 t) (iblk m c 4 t) (ix2 p q)
    = entry (V m c main_v0) (V m c main_arg1) (V m c main_arg3) (V m c main_arg2) (V m c main_v5)
        ⟨win0_5.index t (0 : Fin 2) * 256 + 1 * p.val, _⟩ ⟨win0_5.index t (1 : Fin 2) * 256 + 1 * q.val, _⟩
  refine block_entry (V m c main_v0) (V m c main_arg1) (V m c main_arg3) (V m c main_arg2) (V m c main_v5)
    (iblk m c 0 t) (iblk m c 1 t) (iblk m c 3 t) (iblk m c 2 t) (iblk m c 4 t) p q _ _ ?_ ?_ ?_ ?_ ?_
  · intro k
    show V m c main_v0 (((cfg0.win 0).blk t).view.emb (ix2 p k)) = V m c main_v0 (ix2 _ k)
    refine congrArg _ (funext fun a => Fin.ext ?_)
    match a with
    | ⟨0, _⟩ => show win0_0.index t (0 : Fin 2) * 256 + 1 * p.val = win0_5.index t (0 : Fin 2) * 256 + 1 * p.val; omega
    | ⟨1, _⟩ => show win0_0.index t (1 : Fin 2) * 4096 + 1 * k.val = k.val; omega
  · intro g l
    show V m c main_arg1 (((cfg0.win 1).blk t).view.emb (ix3 q g l)) = V m c main_arg1 (ix3 _ g l)
    refine congrArg _ (funext fun a => Fin.ext ?_)
    match a with
    | ⟨0, _⟩ => show win0_1.index t (0 : Fin 3) * 256 + 1 * q.val = win0_5.index t (1 : Fin 2) * 256 + 1 * q.val; omega
    | ⟨1, _⟩ => show win0_1.index t (1 : Fin 3) * 32 + 1 * g.val = g.val; omega
    | ⟨2, _⟩ => show win0_1.index t (2 : Fin 3) * 128 + 1 * l.val = l.val; omega
  · intro g
    show V m c main_arg3 (((cfg0.win 3).blk t).view.emb (ix2 q g)) = V m c main_arg3 (ix2 _ g)
    refine congrArg _ (funext fun a => Fin.ext ?_)
    match a with
    | ⟨0, _⟩ => show win0_3.index t (0 : Fin 2) * 256 + 1 * q.val = win0_5.index t (1 : Fin 2) * 256 + 1 * q.val; omega
    | ⟨1, _⟩ => show win0_3.index t (1 : Fin 2) * 32 + 1 * g.val = g.val; omega
  · intro g
    show V m c main_arg2 (((cfg0.win 2).blk t).view.emb (ix2 q g)) = V m c main_arg2 (ix2 _ g)
    refine congrArg _ (funext fun a => Fin.ext ?_)
    match a with
    | ⟨0, _⟩ => show win0_2.index t (0 : Fin 2) * 256 + 1 * q.val = win0_5.index t (1 : Fin 2) * 256 + 1 * q.val; omega
    | ⟨1, _⟩ => show win0_2.index t (1 : Fin 2) * 32 + 1 * g.val = g.val; omega
  · intro k
    show V m c main_v5 (((cfg0.win 4).blk t).view.emb (ix1 k)) = V m c main_v5 (ix1 k)
    refine congrArg _ (funext fun a => Fin.ext ?_)
    match a with
    | ⟨0, _⟩ => show win0_4.index t (0 : Fin 1) * 4096 + 1 * k.val = k.val; omega

/-- An index of the array is in point `t`'s block iff each coordinate is in the block's range on its axis. -/
theorem mem_blk (t : Fin cfg0.N) (i : S8192x11008.Idx) :
    i ∈ ((cfg0.win 5).blk t).view.set ↔ ∀ a : Fin 2, win0_5.index t a * S256x256.size a ≤ (i a).val
      ∧ (i a).val < win0_5.index t a * S256x256.size a + S256x256.size a := by
  show i ∈ ((View.whole main_v6).slice (win0_5.rect t)).set ↔ _
  rw [View.set_slice_whole, Rect.mem_set_unit]
  exact Iff.rfl

/-- THE COVER: entry `(r, o)` lies in the block of the point `(r / 256) * 43 + o / 256`. -/
theorem cover (i : S8192x11008.Idx) :
    ∃ t : Fin cfg0.N, (cfg0.win 5).flush t = true ∧ i ∈ ((cfg0.win 5).blk t).view.set := by
  have hi0 : (i 0).val < 8192 := (i 0).isLt
  have hi1 : (i 1).val < 11008 := (i 1).isLt
  have hn : (i 0).val / 256 * 43 + (i 1).val / 256 < cfg0.N := by
    show _ < grid0.N
    rw [N_0]; omega
  obtain ⟨e50, e51, -⟩ := idx_facts ⟨(i 0).val / 256 * 43 + (i 1).val / 256, hn⟩
  have f0 : win0_5.index ⟨(i 0).val / 256 * 43 + (i 1).val / 256, hn⟩ (0 : Fin 2)
      = ((i 0).val / 256 * 43 + (i 1).val / 256) / 43 := e50
  have f1 : win0_5.index ⟨(i 0).val / 256 * 43 + (i 1).val / 256, hn⟩ (1 : Fin 2)
      = ((i 0).val / 256 * 43 + (i 1).val / 256) % 43 := e51
  refine ⟨⟨(i 0).val / 256 * 43 + (i 1).val / 256, hn⟩, flush0_5 _, ?_⟩
  rw [mem_blk]
  intro a
  match a with
  | ⟨0, _⟩ =>
    show win0_5.index ⟨(i 0).val / 256 * 43 + (i 1).val / 256, hn⟩ (0 : Fin 2) * 256 ≤ (i 0).val
      ∧ (i 0).val < win0_5.index ⟨(i 0).val / 256 * 43 + (i 1).val / 256, hn⟩ (0 : Fin 2) * 256 + 256
    omega
  | ⟨1, _⟩ =>
    show win0_5.index ⟨(i 0).val / 256 * 43 + (i 1).val / 256, hn⟩ (1 : Fin 2) * 256 ≤ (i 1).val
      ∧ (i 1).val < win0_5.index ⟨(i 0).val / 256 * 43 + (i 1).val / 256, hn⟩ (1 : Fin 2) * 256 + 256
    omega

/-- THE ARRAY after the region: `whole` of the arrays as the region finds them. -/
theorem final (c : Dev nD) : (dats m 0 c).arrAt 5 cfg0.N
    = whole (V m c main_v0) (V m c main_arg1) (V m c main_arg3) (V m c main_arg2) (V m c main_v5) :=
  (dats m 0 c).arrAt_eq_of_cover 5 _ (fun t _ => flushed_eq m c t) cover

end Cert.KernelIdeal.Arr

end
-- ==== Proof.KernelHost.lean ====
/-
  The host side of the kernel's program.

  Before the region the host (i) flattens the activations `[4, 2048, 4096]` to `[8192, 4096]` and (ii) scales the
  activation-scale vector by the reciprocal of its mean: `a * (1 / mean a)`. After the region it unflattens the
  result `[8192, 11008]` to `[4, 2048, 11008]`. The three lemmas below read those arrays off the program's host
  operations; nothing else of the host side matters to the value.
-/
import proofs.«103320_j1984274890910_1_alg».proof.Proof.Gen.KernelIdeal.Frame
import Idealize.ShloMosaic.Lib.StableHlo.Run
import Idealize.ShloMosaic.PureOps.Ideal

noncomputable section

namespace Cert.KernelIdeal.HostSide

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The scaled vector as a function of the scale vector: each scale times one over the mean. -/
def scaledVec (a : FVec Ideal S4096 .f32) : FVec Ideal S4096 .f32 :=
  mulf a (broadcastInDim S4096 ![] bcast_S_S4096
    (Host.divf (F := Ideal) (constant (F := Ideal) S_ .f32 0x3F800000#32)
      (Host.divf (F := Ideal) (Host.reduceAdd (F := Ideal) a (constant (F := Ideal) S_ .f32 0x00000000#32) reducesTo_S4096_S_d0 h_S_)
        (constant (F := Ideal) S_ .f32 0x45800000#32))))

/-- The region finds the activations flattened. -/
theorem V_main_v0 (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  rfl

/-- The region finds the scale vector scaled by the reciprocal of its mean. -/
theorem V_main_v5 (c : Dev nD) : (V m c main_v5 : S4096.Idx → EReal) = scaledVec (m ((c : Thread nD τ).loc main_arg4)) := by
  show StableHlo.after hostOps0 (fun b => m (c, b)) (Proc.devRef .tc main_v5) = _
  after_results
  rfl

/-- The program's result is the region's output array, unflattened. -/
theorem tail_main_v7 (c : Dev nD) :
    (Pipeline.afterTail₀ cfgs (dats m) 0 (V0 m) [hostOps1] c main_v7 : S4x2048x11008.Idx → EReal)
      = shapeCast S4x2048x11008 ((dats m 0 c).arrAt 5 cfg0.N) shapeCasts_S8192x11008_S4x2048x11008 := by
  unfold Pipeline.afterTail₀
  show StableHlo.after hostOps1 _ (Proc.devRef .tc main_v7) = _
  after_results
  exact congrArg (fun v => shapeCast S4x2048x11008 v shapeCasts_S8192x11008_S4x2048x11008)
    (Pipeline.withArrays_arr spec0 launch0.win.arr_inj c _ _ 5)

end Cert.KernelIdeal.HostSide

end
-- ==== Proof.Consts.lean ====
/-
  The float literals the programs spell, as the extended reals their words denote: `1.0`, `4096.0` and `+inf`
  (`0.0` is the library's `Ideal.ofBits_zero_f32`). Stated once here; the other modules cite them and never open the
  decoding of a word themselves.
-/
import Idealize.ShloMosaic.PureOps.Ideal

noncomputable section

namespace Cert.Consts

open Idealize.ShloMosaic

/-- `1.0` denotes `1`. -/
theorem ofBits_one : Ideal.ofBits .f32 0x3F800000#32 = 1 := by
  simp [Ideal.ofBits, Ideal.ieee, -EReal.coe_mul]; norm_num

/-- `4096.0` denotes the real `4096`. -/
theorem ofBits_4096 : Ideal.ofBits .f32 0x45800000#32 = ((4096 : ℝ) : EReal) := by
  simp [Ideal.ofBits, Ideal.ieee, -EReal.coe_mul]; norm_num

/-- The word of `+inf` denotes `⊤`. -/
theorem ofBits_inf : Ideal.ofBits .f32 0x7F800000#32 = ⊤ := by
  simp [Ideal.ofBits, Ideal.ieee]

end Cert.Consts

end
-- ==== Proof.ScaleLaw.lean ====
/-
  The one algebraic law that joins the two programs.

  The kernel scales the activation vector by the reciprocal of its mean BEFORE the matrix product:
  each term of a row's sum is `(x k * (a k * (1 / μ))) * w k`. The reference forms the product with the
  unscaled vector and divides the finished sum by the mean: `(∑ k, (x k * a k) * w k) / μ`. On the
  real numbers, with `μ ≠ 0`, both are `(∑ k, x k * a k * w k) * μ⁻¹`: a factor common to all terms moves
  across the sum.

  On the extended reals the move needs every quantity finite (a product `0 * ⊤` is `0`, and `⊤ + ⊥` is
  `⊥`, so distributivity fails at the infinities), and the division needs `μ ≠ 0` (there `1 / μ` is an
  infinity and `0 / 0` is `⊥`, and the two sides really differ). So the law is stated for entries
  that are real numbers and a real nonzero `μ`, and proved by pushing the coercion `ℝ → EReal` outward.
-/
import Idealize.ShloMosaic.PureOps.Ideal
import Mathlib.Data.EReal.Operations

namespace Cert.ScaleLaw

open Idealize.ShloMosaic

/-- The coercion of a finite sum of reals is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The quotient of one by a nonzero real is the real reciprocal. -/
theorem one_div_coe {r : ℝ} (hr : r ≠ 0) : Ideal.div 1 (r : EReal) = ((1 / r : ℝ) : EReal) := by
  rw [Ideal.div_coe hr, one_mul]

/-- Scaling every term's second factor by `1 / μ` is dividing the sum by `μ`, for real entries and a real
    nonzero `μ`. -/
theorem sum_scaled_eq_div {ι : Type*} [Fintype ι] (x a w : ι → ℝ) {r : ℝ} (hr : r ≠ 0) :
    ∑ k, ((x k : EReal) * ((a k : EReal) * Ideal.div 1 (r : EReal))) * (w k : EReal)
      = Ideal.div (∑ k, ((x k : EReal) * (a k : EReal)) * (w k : EReal)) (r : EReal) := by
  rw [one_div_coe hr, Ideal.div_coe hr]
  have hl : ∀ k, ((x k : EReal) * ((a k : EReal) * ((1 / r : ℝ) : EReal))) * (w k : EReal)
      = ((x k * (a k * (1 / r)) * w k : ℝ) : EReal) := fun k => by
    rw [EReal.coe_mul, EReal.coe_mul, EReal.coe_mul]
  have hrt : ∀ k, ((x k : EReal) * (a k : EReal)) * (w k : EReal) = ((x k * a k * w k : ℝ) : EReal) := fun k => by
    rw [EReal.coe_mul, EReal.coe_mul]
  rw [Finset.sum_congr rfl fun k _ => hl k, Finset.sum_congr rfl fun k _ => hrt k, ← coe_sum, ← coe_sum,
    ← EReal.coe_mul, Finset.sum_mul]
  exact congrArg _ (Finset.sum_congr rfl fun k _ => by ring)

/-- The same for extended reals known to be real numbers, with `μ` real and nonzero: the form the two programs'
    entries arrive in. -/
theorem sum_scaled_eq_div_of_real {ι : Type*} [Fintype ι] (x a w : ι → EReal) (μ : EReal)
    (hx : ∀ k, ∃ r : ℝ, x k = r) (ha : ∀ k, ∃ r : ℝ, a k = r) (hw : ∀ k, ∃ r : ℝ, w k = r)
    (hμ : ∃ r : ℝ, μ = r) (hμ0 : μ ≠ 0) :
    ∑ k, (x k * (a k * Ideal.div 1 μ)) * w k = Ideal.div (∑ k, (x k * a k) * w k) μ := by
  choose xr hxr using hx
  choose ar har using ha
  choose wr hwr using hw
  obtain ⟨r, rfl⟩ := hμ
  have hr : r ≠ 0 := fun h => hμ0 (by rw [h, EReal.coe_zero])
  simp only [hxr, har, hwr]
  exact sum_scaled_eq_div xr ar wr hr

end Cert.ScaleLaw
-- ==== Proof.Mean.lean ====
/-
  The mean of the 4096 activation scales, as one extended real.

  Both programs (and the precondition) compute it the same way: the sum of the vector from the literal `0.0`,
  divided by the literal `4096.0`. `mu a` is that number; `mean_apply` reads the host's two operations as it, over
  literal shapes, so that each program's own copy of the term is an instance. For a vector of real numbers it is
  the real `(∑ a) / 4096`.
-/
import proofs.«103320_j1984274890910_1_alg».proof.Proof.Consts
import proofs.«103320_j1984274890910_1_alg».proof.Proof.ScaleLaw
import Idealize.ShloMosaic.PureOps.Ideal.Laws
import Idealize.ShloMosaic.Lib.ValueIdx

noncomputable section

namespace Cert.Mean

open Idealize.ShloMosaic Idealize.ShloMosaic.ValueIdx

/-- The mean of a 4096-vector of extended reals, as the host computes it. -/
def mu (a : (⟨1, ![4096]⟩ : Shape).Idx → EReal) : EReal :=
  Ideal.div (Ideal.ofBits .f32 0x00000000#32 + ∑ j : (⟨1, ![4096]⟩ : Shape).Idx, a j) (Ideal.ofBits .f32 0x45800000#32)

/-- The host's sum over the vector's one axis followed by the division by `4096.0`, read at the result's one index. -/
theorem mean_apply (h : (⟨1, ![4096]⟩ : Shape).ReducesTo [0] ⟨0, ![]⟩) (h0 : 0 < (⟨0, ![]⟩ : Shape).numel)
    (a : FVec Ideal ⟨1, ![4096]⟩ .f32) (i : (⟨0, ![]⟩ : Shape).Idx) :
    Host.divf (F := Ideal) (Host.reduceAdd (F := Ideal) a (constant (F := Ideal) ⟨0, ![]⟩ .f32 0x00000000#32) h h0)
      (constant (F := Ideal) ⟨0, ![]⟩ .f32 0x45800000#32) i = mu a := by
  show Ideal.div (Host.reduceAdd (F := Ideal) a (constant (F := Ideal) ⟨0, ![]⟩ .f32 0x00000000#32) h h0 i)
    (Ideal.ofBits .f32 0x45800000#32) = _
  unfold mu
  refine congrArg (fun v => Ideal.div v (Ideal.ofBits .f32 0x45800000#32)) ?_
  simp only [Host.reduceAdd, Ideal.hostReduceAdd_def]
  exact Ideal.hostReduceAdd_total h (fun b => b.elim0) a _ i

/-- The mean of real numbers is the real mean. -/
theorem mu_coe (ar : (⟨1, ![4096]⟩ : Shape).Idx → ℝ) :
    mu (fun j => (ar j : EReal)) = (((∑ j, ar j) / 4096 : ℝ) : EReal) := by
  unfold mu
  rw [Ideal.ofBits_zero_f32, zero_add, Cert.Consts.ofBits_4096, ← Cert.ScaleLaw.coe_sum,
    Ideal.div_coe (by norm_num : (4096 : ℝ) ≠ 0), ← EReal.coe_mul]
  exact congrArg _ (by ring)

/-- So the mean of a vector of real numbers is a real number. -/
theorem mu_real (a : (⟨1, ![4096]⟩ : Shape).Idx → EReal) (ha : ∀ j, ∃ r : ℝ, a j = r) : ∃ r : ℝ, mu a = r := by
  choose ar har using ha
  exact ⟨_, (congrArg mu (funext har)).trans (mu_coe ar)⟩

end Cert.Mean

end
-- ==== Proof.KernelValue.lean ====
/-
  The kernel program's result, read at an index.

  Putting the host side and the region together: the program's result is the region's output array unflattened,
  the region's array is `whole` of the flattened activations, the weights' three arrays and the scaled vector, and
  the scaled vector is `a k * (1 / mean a)`. So at entry `(b, s, o)`:
      kernel (b, s, o) = ∑ k, (x (b, s, k) * (a k * (1 / mean a))) * W o k.
-/
import proofs.«103320_j1984274890910_1_alg».proof.Proof.KernelArray
import proofs.«103320_j1984274890910_1_alg».proof.Proof.KernelHost
import proofs.«103320_j1984274890910_1_alg».proof.Proof.Mean

noncomputable section

namespace Cert.KernelIdeal.KValue

open Cert.KernelIdeal Cert.KernelIdeal.Gen Cert.KernelIdeal.Arr Cert.KernelIdeal.HostSide Cert.Spec Cert.Mean Cert.LibReshape
open Idealize.ShloMosaic Idealize.ShloMosaic.TcCoe Idealize.ShloMosaic.ValueIdx Idealize.SL.Sem

/-- The program's result as a function of its five argument arrays. -/
def result (x0 : Vec Ideal S4x2048x4096 .f32) (x1 : Vec Ideal S11008x32x128 .i32) (x2 x3 : Vec Ideal S11008x32 .f32)
    (x4 : Vec Ideal S4096 .f32) : S4x2048x11008.Idx → EReal :=
  shapeCast S4x2048x11008
    (whole (shapeCast S8192x4096 x0 shapeCasts_S4x2048x4096_S8192x4096) x1 x3 x2 (scaledVec x4))
    shapeCasts_S8192x11008_S4x2048x11008

variable (m : (ℓ : Loc nD τ sig) → Buf (Elt Ideal) ℓ)

/-- What the run leaves in the result buffer is `result` of the argument arrays as launched. -/
theorem tail_eq (c : Dev nD) :
    (Pipeline.afterTail₀ cfgs (dats m) 0 (V0 m) [hostOps1] c main_v7 : S4x2048x11008.Idx → EReal)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_main_v7, Arr.final, V_main_v0, V_main_v5, V_main_arg1, V_main_arg2, V_main_arg3]
  rfl

/-- The scaled vector at position `k`: the scale times one over the mean. -/
theorem scaledVec_apply (a : FVec Ideal S4096 .f32) (k : Fin 4096) :
    scaledVec a (ix1 k) = a (ix1 k) * Ideal.div 1 (mu a) := by
  unfold scaledVec
  rw [mulf_apply]
  refine congrArg (a (ix1 k) * ·) ?_
  refine (broadcastInDim_apply _ bcast_S_S4096 _ (ix1 k) ix0 (fun a => a.elim0)).trans ?_
  show Ideal.div (Ideal.ofBits .f32 0x3F800000#32)
    (Host.divf (F := Ideal) (Host.reduceAdd (F := Ideal) a (constant (F := Ideal) S_ .f32 0x00000000#32) reducesTo_S4096_S_d0 h_S_)
      (constant (F := Ideal) S_ .f32 0x45800000#32) ix0) = _
  rw [mean_apply, Cert.Consts.ofBits_one]

/-- THE KERNEL PROGRAM at `(b, s, o)`. -/
theorem result_apply (x0 : Vec Ideal S4x2048x4096 .f32) (x1 : Vec Ideal S11008x32x128 .i32) (x2 x3 : Vec Ideal S11008x32 .f32)
    (x4 : Vec Ideal S4096 .f32) (b : Fin 4) (s : Fin 2048) (o : Fin 11008) :
    result x0 x1 x2 x3 x4 (ix3 b s o)
      = ∑ k : Fin 4096, (x0 (ix3 b s k) * (x4 (ix1 k) * Ideal.div 1 (mu x4))) * deq x1 x3 x2 o k := by
  have hr : b.val * 2048 + s.val < 8192 := by have := b.isLt; have := s.isLt; omega
  unfold result
  rw [shapeCast_ab_c_abc_apply _ _ b s o ⟨b.val * 2048 + s.val, hr⟩ rfl]
  show entry _ x1 x3 x2 (scaledVec x4) ⟨b.val * 2048 + s.val, hr⟩ o = _
  unfold entry
  refine Finset.sum_congr rfl fun k _ => ?_
  rw [shapeCast_abc_ab_c_apply _ _ b s k ⟨b.val * 2048 + s.val, hr⟩ rfl, scaledVec_apply]

end Cert.KernelIdeal.KValue

end
-- ==== Proof.RefValue.lean ====
/-
  The reference's result, read at an index.

  The reference scales the activations by the scale vector, forms the matrix product with the dequantized weights
  over the contracted axis, and divides by the mean of the scale vector. At entry `(b, s, o)`:
      ref (b, s, o) = (∑ k, (x (b, s, k) * a k) * W o k) / mean a.
  Each of the reference's eighteen operations is read at an index by its generated lemma; what is added here is the
  identification of the composed index maps with plain coordinates (position `k` of the flattened weight row `o` is
  lane `k % 128` of group `k / 128`).
-/
import proofs.«103320_j1984274890910_1_alg».proof.Proof.Gen.ReferenceIdeal.Read
import proofs.«103320_j1984274890910_1_alg».proof.Proof.Spec
import proofs.«103320_j1984274890910_1_alg».proof.Proof.Mean

noncomputable section

namespace Cert.ReferenceIdeal.RefValue

open Cert.ReferenceIdeal Cert.ReferenceIdeal.Read Idealize.ShloMosaic Idealize.ShloMosaic.ValueIdx Cert.Spec Cert.Mean

/-- THE REFERENCE at `(b, s, o)`. -/
theorem ref_apply (x0 : (⟨S4x2048x4096, .f32⟩ : BufTy).Contents (Elt Ideal)) (x1 : (⟨S11008x32x128, .i32⟩ : BufTy).Contents (Elt Ideal))
    (x2 x3 : (⟨S11008x32, .f32⟩ : BufTy).Contents (Elt Ideal)) (x4 : (⟨S4096, .f32⟩ : BufTy).Contents (Elt Ideal))
    (b : Fin 4) (s : Fin 2048) (o : Fin 11008) :
    val_main_v15 (F := Ideal) x0 x1 x2 x3 x4 (ix3 b s o)
      = Ideal.div (∑ k : Fin 4096, (x0 (ix3 b s k) * x4 (ix1 k)) * deq x1 x3 x2 o k) (mu x4) := by
  rw [val_main_v15_apply, val_main_v14_apply, val_main_v11_apply]
  have hmu : val_main_v13 (F := Ideal) x4 (idx_main_v14 (ix3 b s o)) = mu x4 := mean_apply _ _ x4 _
  rw [hmu]
  refine congrArg (fun v => Ideal.div v (mu x4)) (Finset.sum_congr rfl fun k _ => ?_)
  have e1 : lidx_main_v11 (ix3 b s o) k = ix3 b s k := funext fun a => Fin.ext (by
    match a with | ⟨0, _⟩ => rfl | ⟨1, _⟩ => rfl | ⟨2, _⟩ => rfl)
  have e2 : idx_main_v0 (idx_main_v1 (ix3 b s k)) = ix1 k := funext fun a => Fin.ext (by
    match a with | ⟨0, _⟩ => rfl)
  have e3 : idx_main_v10 (ridx_main_v11 (ix3 b s o) k) = ix3 o (grp k) (lane k) := funext fun a => Fin.ext (by
    have hk : k.val < 4096 := k.isLt
    match a with
    | ⟨0, _⟩ => show (o.val * 4096 + k.val) / 4096 = o.val; omega
    | ⟨1, _⟩ => show (o.val * 4096 + k.val) / 128 % 32 = k.val / 128; omega
    | ⟨2, _⟩ => show (o.val * 4096 + k.val) % 128 = k.val % 128; omega)
  have e4 : idx_main_v4 (idx_main_v5 (ix3 o (grp k) (lane k))) = ix2 o (grp k) := funext fun a => Fin.ext (by
    match a with | ⟨0, _⟩ => rfl | ⟨1, _⟩ => rfl)
  have e5 : idx_main_v7 (idx_main_v8 (ix3 o (grp k) (lane k))) = ix2 o (grp k) := funext fun a => Fin.ext (by
    match a with | ⟨0, _⟩ => rfl | ⟨1, _⟩ => rfl)
  rw [val_main_v2_apply, val_main_v1_apply, val_main_v0_apply, val_main_v10_apply, val_main_v9_apply, val_main_v6_apply,
    val_main_v3_apply, val_main_v5_apply, val_main_v4_apply, val_main_v8_apply, val_main_v7_apply, e1, e2, e3, e4, e5]
  rfl

end Cert.ReferenceIdeal.RefValue

end
-- ==== Proof.Bridge.lean ====
/-
  The two programs compute one function, on arguments that are real numbers with a nonzero mean of the scales.

  At entry `(b, s, o)` the kernel program's result is `∑ k, (x k * (a k * (1 / μ))) * W k` and the reference's is
  `(∑ k, (x k * a k) * W k) / μ`, with the same row `x` of activations, the same scales `a`, the same dequantized
  weights `W` of feature `o` and the same mean `μ` of the scales. With every entry real and `μ ≠ 0` the two are equal
  (the scaling law); the weights are real because the zero points and scales are, and `μ` is real because the scales
  are.
-/
import proofs.«103320_j1984274890910_1_alg».proof.Proof.KernelValue
import proofs.«103320_j1984274890910_1_alg».proof.Proof.RefValue
import proofs.«103320_j1984274890910_1_alg».proof.Proof.ScaleLaw

noncomputable section

namespace Cert.Bridge

open Idealize.ShloMosaic Idealize.ShloMosaic.ValueIdx Cert.Spec Cert.Mean

/-- THE KERNEL PROGRAM'S RESULT IS THE REFERENCE'S, as whole arrays. -/
theorem kernel_eq_reference (x0 : FVec Ideal ⟨3, ![4, 2048, 4096]⟩ .f32) (x1 : IVec ⟨3, ![11008, 32, 128]⟩ 32)
    (x2 x3 : FVec Ideal ⟨2, ![11008, 32]⟩ .f32) (x4 : FVec Ideal ⟨1, ![4096]⟩ .f32)
    (h0 : ∀ i, ∃ r : ℝ, x0 i = r) (h2 : ∀ i, ∃ r : ℝ, x2 i = r) (h3 : ∀ i, ∃ r : ℝ, x3 i = r)
    (h4 : ∀ i, ∃ r : ℝ, x4 i = r) (hμ : mu x4 ≠ 0) :
    Cert.KernelIdeal.KValue.result x0 x1 x2 x3 x4 = Cert.ReferenceIdeal.Read.val_main_v15 (F := Ideal) x0 x1 x2 x3 x4 := by
  funext i
  obtain ⟨b, s, o, rfl⟩ : ∃ (b : Fin 4) (s : Fin 2048) (o : Fin 11008), i = ix3 b s o := ⟨i 0, i 1, i 2, eq_ix3 i⟩
  rw [Cert.KernelIdeal.KValue.result_apply, Cert.ReferenceIdeal.RefValue.ref_apply]
  exact Cert.ScaleLaw.sum_scaled_eq_div_of_real (fun k => x0 (ix3 b s k)) (fun k => x4 (ix1 k)) (fun k => deq x1 x3 x2 o k) (mu x4)
    (fun _ => h0 _) (fun _ => h4 _) (fun k => deq_real x1 x3 x2 h3 h2 o k) (mu_real x4 h4) hμ

end Cert.Bridge

end
-- ==== Proof.PreDecode.lean ====
/-
  What the precondition says of the arguments.

  The precondition is the conjunction of four `all (|x| < +inf)` tests, one per float argument, and the test
  `mean a ≠ 0` on the activation-scale vector. Over the extended reals `|x| < ⊤` says `x` is neither infinity, that
  is, a real number; and the last conjunct is about the very quotient both programs divide by. So the precondition
  gives: every entry of the four float arrays is a real number, and the mean of the scale vector is not zero.
-/
import proofs.«103320_j1984274890910_1_alg».proof.Pre_finite_inputs
import proofs.«103320_j1984274890910_1_alg».proof.Proof.Mean
import Idealize.ShloMosaic.Lib.ReduceAll
import Idealize.ShloMosaic.Lib.Affine
import Idealize.ShloMosaic.Lib.Pipeline.Value
import Idealize.ShloMosaic.PureOps.Ideal.Laws

noncomputable section

namespace Cert.Pre_finite_inputs.Decode

open Cert.Pre_finite_inputs Cert.Pre_finite_inputs.Facts Idealize.ShloMosaic Idealize.ShloMosaic.ValueIdx Cert.Mean

variable [Cert.Pre_finite_inputs.Facts]

instance : Subsingleton S_.Idx := ⟨fun _ _ => funext fun d => d.elim0⟩

/-- A strict comparison that answers 1 holds. -/
theorem lt_of_cmp_olt {x y : EReal} (h : Ideal.cmp .olt x y = 1#1) : x < y := by
  by_contra hn
  simp [Ideal.cmp, hn] at h

/-- A not-equal comparison that answers 1 holds. -/
theorem ne_of_cmp_une {x y : EReal} (h : Ideal.cmp .une x y = 1#1) : x ≠ y := by
  intro hn
  simp [Ideal.cmp, hn] at h

/-- An extended real whose absolute value is below `⊤` is a real number. -/
theorem real_of_abs_lt_top (x : EReal) (h : max x (-x) < ⊤) : ∃ r : ℝ, x = r := by
  induction x using EReal.rec with
  | bot => simp at h
  | coe r => exact ⟨r, rfl⟩
  | top => simp at h

/-- One `all (|x| < +inf)` conjunct: every entry of `x` is a real number. -/
theorem all_real {s : Shape} {axes : List (Fin s.rank)} (x : FVec Ideal s .f32) (dims : Fin S_.rank → Fin s.rank)
    (hb : S_.BroadcastsInDim s dims) (hr : s.ReducesTo axes S_) (hu : 0 < S_.numel)
    (e : Host.reduce IntOp.andi (cmpf .olt (Host.absf x) (broadcastInDim s dims hb (constant (F := Ideal) S_ .f32 0x7F800000#32)))
      (constantI S_ 1 1#1) hr hu ix0 = 1#1) (i : s.Idx) : ∃ r : ℝ, x i = r := by
  have hi : Ideal.cmp .olt (max (x i) (-(x i))) (broadcastInDim s dims hb (constant (F := Ideal) S_ .f32 0x7F800000#32) i) = 1#1 :=
    Host.reduce_andi_all _ _ hr hu ix0 e i
  have hb' : broadcastInDim s dims hb (constant (F := Ideal) S_ .f32 0x7F800000#32) i = ⊤ :=
    (broadcastInDim_apply dims hb _ i ix0 (fun a => a.elim0)).trans Cert.Consts.ofBits_inf
  rw [hb'] at hi
  exact real_of_abs_lt_top _ (lt_of_cmp_olt hi)

/-- THE PRECONDITION, DECODED. -/
theorem decode (x0 : FVec Ideal S4x2048x4096 .f32) (x1 : IVec S11008x32x128 32) (x2 x3 : FVec Ideal S11008x32 .f32)
    (x4 : FVec Ideal S4096 .f32) (h : fn (F := Ideal) x0 x1 x2 x3 x4 = fun _ => 1#1) :
    (∀ i, ∃ r : ℝ, x0 i = r) ∧ (∀ i, ∃ r : ℝ, x2 i = r) ∧ (∀ i, ∃ r : ℝ, x3 i = r) ∧ (∀ i, ∃ r : ℝ, x4 i = r)
      ∧ mu x4 ≠ 0 := by
  have h1 : fn (F := Ideal) x0 x1 x2 x3 x4 ix0 = 1#1 := congrFun h ix0
  dsimp only [fn, fn_part1] at h1
  obtain ⟨h18, h21⟩ := IntOp.andi_eq_one.1 h1
  obtain ⟨h13, h17⟩ := IntOp.andi_eq_one.1 h18
  obtain ⟨h8, h12⟩ := IntOp.andi_eq_one.1 h13
  obtain ⟨h3, h7⟩ := IntOp.andi_eq_one.1 h8
  refine ⟨all_real x0 _ _ _ _ h3, all_real x2 _ _ _ _ h7, all_real x3 _ _ _ _ h12, all_real x4 _ _ _ _ h17, ?_⟩
  have hne : Host.divf (F := Ideal) (Host.reduceAdd (F := Ideal) x4 (constant (F := Ideal) S_ .f32 0x00000000#32) reducesTo_S4096_S_d0 h_S_)
      (constant (F := Ideal) S_ .f32 0x45800000#32) ix0 ≠ Ideal.ofBits .f32 0x00000000#32 := ne_of_cmp_une h21
  rw [mean_apply, Ideal.ofBits_zero_f32] at hne
  exact hne

end Cert.Pre_finite_inputs.Decode

end
-- ==== Proof.lean ====
/-
  The certificate's claims, assembled.

  The claim is stated for activations `x`, integer weight codes with per-group zero points and scales, and a vector
  `a` of activation scales, under the precondition that every float input is finite and that the mean of `a` is not
  zero (the reference divides by that mean).

  * The three frames: the kernel's two printed programs run and leave their arguments as they were (the generated
    frame runs); the reference is a straight-line host program (its generated run, the result dropped).
  * The idealized kernel is the kernel's own text read over the extended reals: nothing was rewritten.
  * The values. The kernel program's run leaves in its result buffer `result` of the arguments: the region's output
    array is one whole-array function of what the region reads (`KernelArray`), the host prepares the flattened
    activations and the scales multiplied by the reciprocal of their mean, and unflattens the output (`KernelHost`,
    `KernelValue`). The reference's run leaves its operations' composed term. The two are one function of
    arguments that are real with a nonzero mean (`Bridge`): scaling every scale by `1 / mean` before the matrix
    product is dividing the product by the mean. The precondition gives exactly those hypotheses (`PreDecode`).
-/
import proofs.«103320_j1984274890910_1_alg».proof.Defs
import proofs.«103320_j1984274890910_1_alg».proof.Proof.Gen.Kernel
import proofs.«103320_j1984274890910_1_alg».proof.Proof.Gen.Kernel.Skeleton
import proofs.«103320_j1984274890910_1_alg».proof.Proof.Gen.Kernel.Launch
import proofs.«103320_j1984274890910_1_alg».proof.Proof.Gen.Kernel.Points
import proofs.«103320_j1984274890910_1_alg».proof.Proof.Gen.Kernel.Frame
import proofs.«103320_j1984274890910_1_alg».proof.Proof.Gen.KernelIdeal
import proofs.«103320_j1984274890910_1_alg».proof.Proof.Gen.KernelIdeal.Skeleton
import proofs.«103320_j1984274890910_1_alg».proof.Proof.Gen.KernelIdeal.Launch
import proofs.«103320_j1984274890910_1_alg».proof.Proof.Gen.KernelIdeal.Points
import proofs.«103320_j1984274890910_1_alg».proof.Proof.Gen.KernelIdeal.Frame
import proofs.«103320_j1984274890910_1_alg».proof.Proof.Gen.ReferenceIdeal
import proofs.«103320_j1984274890910_1_alg».proof.Proof.Gen.ReferenceIdeal.Run
import proofs.«103320_j1984274890910_1_alg».proof.Proof.Gen.ReferenceIdeal.Read
import proofs.«103320_j1984274890910_1_alg».proof.Proof.Gen.Pre_finite_inputs
import proofs.«103320_j1984274890910_1_alg».proof.Proof.Bridge
import proofs.«103320_j1984274890910_1_alg».proof.Proof.PreDecode
import Idealize.ShloMosaic.Adequacy
import Idealize.ShloMosaic.Init

noncomputable section

/-! ## The kernel program's run, with its result named -/

namespace Cert.KernelIdeal.KRun

open Cert.KernelIdeal Cert.KernelIdeal.Gen Cert.KernelIdeal.KValue
open Idealize.ShloMosaic Idealize.ShloMosaic.TcCoe Idealize.SL.Sem

/-- Every weakly fair execution of the idealized kernel program terminates with its result buffer at `result` of
    the argument arrays as launched, and the arguments as launched: the generated frame run, its post read. The
    result buffer and the two arguments no window stages are left by the host operations after the region; the
    three staged arguments are input arrays of the region, which it never writes. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v7)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.KRun

/-! ## The claims -/

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the kernel program's `result` of the (agreeing) arguments: the kernel's by its run, the
    reference's because under the precondition its composed term is that function. -/
theorem algebraic : Cert.algebraic_KernelIdeal_ReferenceIdeal := by
  intro m ρ m' ρ' hpre hagree
  refine ⟨_, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2.1, (hagree c).2.2.1, (hagree c).2.2.2.1,
    (hagree c).2.2.2.2]
  obtain ⟨h0, h2, h3, h4, hμ⟩ := Cert.Pre_finite_inputs.Decode.decode _ _ _ _ _ (hpre c)
  exact (Cert.Bridge.kernel_eq_reference _ _ _ _ _ h0 h2 h3 h4 hμ).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
